-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1 : Shape := ⟨2, ![8192, 1]⟩
abbrev S_ : Shape := ⟨0, ![]⟩

class Facts : Prop where
  bcast_S_S8192x1 : S_.BroadcastsInDim S8192x1 (![] : Fin 0 → Fin S8192x1.rank)
  reducesTo_S8192x1_S_d0_1 : S8192x1.ReducesTo [0, 1] S_
  h_S_ : 0 < S_.numel

variable [Facts]

def fn {F : FTy → Type} [FloatOps F] (main_arg0 : FVec F S8192x1 .f32) (main_arg1 : FVec F S8192x1 .f32) : IVec S_ 1 :=
  let main_v0 : FVec F S8192x1 .f32 := Host.absf main_arg0
  let main_cst : FVec F S_ .f32 := constant S_ .f32 0x7F800000#32
  let main_v1 : FVec F S8192x1 .f32 := broadcastInDim S8192x1 ![] bcast_S_S8192x1 main_cst
  let main_v2 : IVec S8192x1 1 := cmpf .olt main_v0 main_v1
  let main_c : IVec S_ 1 := constantI S_ 1 1#1
  let main_v3 : IVec S_ 1 := (fun x v => Host.reduce IntOp.andi x v reducesTo_S8192x1_S_d0_1 h_S_) main_v2 main_c
  let main_v4 : FVec F S8192x1 .f32 := Host.absf main_arg1
  let main_cst_0 : FVec F S_ .f32 := constant S_ .f32 0x7F800000#32
  let main_v5 : FVec F S8192x1 .f32 := broadcastInDim S8192x1 ![] bcast_S_S8192x1 main_cst_0
  let main_v6 : IVec S8192x1 1 := cmpf .olt main_v4 main_v5
  let main_c_1 : IVec S_ 1 := constantI S_ 1 1#1
  let main_v7 : IVec S_ 1 := (fun x v => Host.reduce IntOp.andi x v reducesTo_S8192x1_S_d0_1 h_S_) main_v6 main_c_1
  let main_v8 : IVec S_ 1 := andi main_v3 main_v7
  main_v8
-- ==== Kernel.lean ====
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩

abbrev nBuf : Space → Nat
  | .hbm => 47
  | .vmem => 9
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192x1, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x8192, .f32⟩
  | .hbm, ⟨34, _⟩ => ⟨S1x8192, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x512, .f32⟩
  | .local _ .vmem, ⟨3, _⟩ => ⟨S1x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | _, _ => ⟨S8192x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_7 : Ref sig .tc := ⟨.hbm, 37, rfl⟩
abbrev main_v21 : Ref sig .tc := ⟨.hbm, 38, rfl⟩
abbrev main_cst_8 : Ref sig .tc := ⟨.hbm, 39, rfl⟩
abbrev main_v22 : Ref sig .tc := ⟨.hbm, 40, rfl⟩
abbrev main_cst_9 : Ref sig .tc := ⟨.hbm, 41, rfl⟩
abbrev main_v23 : Ref sig .tc := ⟨.hbm, 42, rfl⟩
abbrev main_v24 : Ref sig .tc := ⟨.hbm, 43, rfl⟩
abbrev main_cst_10 : Ref sig .tc := ⟨.hbm, 44, rfl⟩
abbrev main_v25 : Ref sig .tc := ⟨.hbm, 45, rfl⟩
abbrev main_v26 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [BitOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  reducesTo_S8192x1_S_d0_1 : S8192x1.ReducesTo [0, 1] S_
  h_S_ : 0 < S_.numel
  reducesTo_S8192x1_S8192_d1 : S8192x1.ReducesTo [1] S8192
  bcast_S_S8192 : S_.BroadcastsInDim S8192 (![] : Fin 0 → Fin S8192.rank)
  reducesTo_S8192_S_d0 : S8192.ReducesTo [0] S_
  transposes_S8192x1_S1x8192_1_0 : S8192x1.Transposes [1, 0] S1x8192
  inb_S1x1_S1x1_0_0 : ∀ a, (![0, 0] : Fin 2 → Nat) a + S1x1.size a ≤ S1x1.size a
  h_S1x1 : 0 < S1x1.numel
  inb_S512x1_S512x1_0_0 : ∀ a, (![0, 0] : Fin 2 → Nat) a + S512x1.size a ≤ S512x1.size a
  h_S512x1 : 0 < S512x1.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x8192.size a
  hwx0_1 : ∀ i : grid0.Coords, EltTy.bits .f32 = 32 ∨ (Rect.block (s := S1x8192) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x1 : Shape := ⟨2, ![8192, 1]⟩
abbrev S_ : Shape := ⟨0, ![]⟩
abbrev S8192 : Shape := ⟨1, ![8192]⟩
abbrev S1x8192 : Shape := ⟨2, ![1, 8192]⟩
abbrev S8192x8192 : Shape := ⟨2, ![8192, 8192]⟩

abbrev nBuf : Space → Nat
  | .hbm => 92
  | .vmem => 0
  | .smem => 0
  | _ => 0

abbrev bufTy : (tb : Table) → Fin (tcTables nBuf tb) → BufTy
  | .hbm, ⟨0, _⟩ => ⟨S8192x1, .f32⟩
  | .hbm, ⟨1, _⟩ => ⟨S8192x1, .f32⟩
  | .hbm, ⟨2, _⟩ => ⟨S8192x1, .f32⟩
  | .hbm, ⟨3, _⟩ => ⟨S8192x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S8192x1, .f32⟩
  | .hbm, ⟨41, _⟩ => ⟨S1x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192x8192, .f32⟩
  | .hbm, ⟨47, _⟩ => ⟨S8192x8192, .i1⟩
  | .hbm, ⟨48, _⟩ => ⟨S_, .f32⟩
  | .hbm, ⟨49, _⟩ => ⟨S8192x8192, .f32⟩
  | .hbm, ⟨50, _⟩ => ⟨S8192x8192, .i1⟩
  | .hbm, ⟨51, _⟩ => ⟨S8192x8192, .f32⟩
  | .hbm, ⟨52, _⟩ => ⟨S_, .f32⟩
  | .hbm, ⟨53, _⟩ => ⟨S_, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S_, .i1⟩
  | .hbm, ⟨61, _⟩ => ⟨S8192x8192, .i1⟩
  | .hbm, ⟨62, _⟩ => ⟨S8192x8192, .i32⟩
  | .hbm, ⟨63, _⟩ => ⟨S_, .i32⟩
  | .hbm, ⟨64, _⟩ => ⟨S8192x8192, .i32⟩
  | .hbm, ⟨65, _⟩ => ⟨S8192x8192, .i32⟩
  | .hbm, ⟨66, _⟩ => ⟨S8192x8192, .i32⟩
  | .hbm, ⟨67, _⟩ => ⟨S8192x8192, .i1⟩
  | .hbm, ⟨68, _⟩ => ⟨S_, .i1⟩
  | .hbm, ⟨69, _⟩ => ⟨S8192x8192, .i1⟩
  | .hbm, ⟨70, _⟩ => ⟨S8192x8192, .i1⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S_, .f32⟩
  | .hbm, ⟨78, _⟩ => ⟨S8192x8192, .f32⟩
  | .hbm, ⟨79, _⟩ => ⟨S8192x8192, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | _, _ => ⟨S8192x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_cst_6 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_v34 : Ref sig .tc := ⟨.hbm, 55, rfl⟩
abbrev main_cst_10 : Ref sig .tc := ⟨.hbm, 56, rfl⟩
abbrev main_call3_v0 : Ref sig .tc := ⟨.hbm, 57, rfl⟩
abbrev main_call3_v1 : Ref sig .tc := ⟨.hbm, 58, rfl⟩
abbrev main_v35 : Ref sig .tc := ⟨.hbm, 59, rfl⟩
abbrev main_c : Ref sig .tc := ⟨.hbm, 60, rfl⟩
abbrev main_v36 : Ref sig .tc := ⟨.hbm, 61, rfl⟩
abbrev main_call4_v0 : Ref sig .tc := ⟨.hbm, 62, rfl⟩
abbrev main_call4_c : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_call4_c_0 : Ref sig .tc := ⟨.hbm, 68, rfl⟩
abbrev main_call4_v5 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_11 : Ref sig .tc := ⟨.hbm, 73, rfl⟩
abbrev main_v40 : Ref sig .tc := ⟨.hbm, 74, rfl⟩
abbrev main_v41 : Ref sig .tc := ⟨.hbm, 75, rfl⟩
abbrev main_cst_12 : Ref sig .tc := ⟨.hbm, 76, rfl⟩
abbrev main_call5_v0 : Ref sig .tc := ⟨.hbm, 77, rfl⟩
abbrev main_call5_v1 : Ref sig .tc := ⟨.hbm, 78, rfl⟩
abbrev main_v42 : Ref sig .tc := ⟨.hbm, 79, rfl⟩
abbrev main_cst_13 : Ref sig .tc := ⟨.hbm, 80, rfl⟩
abbrev main_v43 : Ref sig .tc := ⟨.hbm, 81, rfl⟩
abbrev main_cst_14 : Ref sig .tc := ⟨.hbm, 82, rfl⟩
abbrev main_v44 : Ref sig .tc := ⟨.hbm, 83, rfl⟩
abbrev main_cst_15 : Ref sig .tc := ⟨.hbm, 84, rfl⟩
abbrev main_v45 : Ref sig .tc := ⟨.hbm, 85, rfl⟩
abbrev main_cst_16 : Ref sig .tc := ⟨.hbm, 86, rfl⟩
abbrev main_v46 : Ref sig .tc := ⟨.hbm, 87, rfl⟩
abbrev main_v47 : Ref sig .tc := ⟨.hbm, 88, rfl⟩
abbrev main_cst_17 : Ref sig .tc := ⟨.hbm, 89, rfl⟩
abbrev main_v48 : Ref sig .tc := ⟨.hbm, 90, rfl⟩
abbrev main_v49 : Ref sig .tc := ⟨.hbm, 91, rfl⟩

abbrev nD : Nat := 1
abbrev τ : Topo := Topo.v7x

variable {F : FTy → Type} [FloatOps F]

class Facts₀ : Prop where
  reducesTo_S8192x1_S_d0_1 : S8192x1.ReducesTo [0, 1] S_
  h_S_ : 0 < S_.numel
  reducesTo_S8192x1_S8192_d1 : S8192x1.ReducesTo [1] S8192
  bcast_S_S8192 : S_.BroadcastsInDim S8192 (![] : Fin 0 → Fin S8192.rank)
  reducesTo_S8192_S_d0 : S8192.ReducesTo [0] S_
  shapeCasts_S8192x1_S8192 : S8192x1.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.MarginSpec.lean ====
/-
  The pairwise margin-ranking sum on the extended reals, and its regrouping by tiles.

  For vectors `y`, `l` of 8192 entries the hinge of a pair (a, b) is
  `max 0 (-r · (y a − y b))` with `r = 1` if `l a − l b > 0`, `−1` if `l a − l b < 0`, else the sign of `y a − y b`;
  the margin sum adds it over the pairs `a < b`. Cutting both index ranges into 16 runs of 512 writes the same sum as
  a sum over 16 × 16 tiles of 512 × 512 pairs, and listing the tiles row-major as 256 points writes it as a running sum
  over the points. Only commutativity and associativity of `+` are used, which hold on all of `EReal`.
-/
import Idealize.ShloMosaic.PureOps.Ideal.Laws
import Mathlib.Algebra.BigOperators.Fin

noncomputable section

open scoped BigOperators

namespace Cert.Margin

open Idealize.ShloMosaic

/-- The hinge of one pair: `max 0 (-r · dy)`, `r` chosen by the sign of `dl`, falling back on the sign of `dy`. -/
def hinge (yi yj li lj : EReal) : EReal :=
  max 0 (-(if 0 < li - lj then (1 : EReal) else if li - lj < 0 then -1 else Ideal.sign (yi - yj)) * (yi - yj))

/-- The pair (a, b) counts when `a < b`. -/
def term (y l : Fin 8192 → EReal) (a b : Fin 8192) : EReal :=
  if a.val < b.val then hinge (y a) (y b) (l a) (l b) else 0

/-- The margin sum: every pair `a < b`, as a double sum over all pairs of the masked term. -/
def margin (y l : Fin 8192 → EReal) : EReal := ∑ a : Fin 8192, ∑ b : Fin 8192, term y l a b

/-- Entry `p` of run `g`: global index `512 g + p`. -/
def glob (g : Fin 16) (p : Fin 512) : Fin 8192 :=
  ⟨g.val * 512 + p.val, by have := g.isLt; have := p.isLt; omega⟩

@[simp] theorem glob_val (g : Fin 16) (p : Fin 512) : (glob g p).val = g.val * 512 + p.val := rfl

/-- (run, entry) ↔ global index. -/
def globEquiv : Fin 16 × Fin 512 ≃ Fin 8192 where
  toFun x := glob x.1 x.2
  invFun a := (⟨a.val / 512, by have := a.isLt; omega⟩, ⟨a.val % 512, by omega⟩)
  left_inv x := by
    obtain ⟨g, p⟩ := x
    have := g.isLt; have := p.isLt
    apply Prod.ext <;> apply Fin.ext <;> simp only [glob_val] <;> omega
  right_inv a := by
    apply Fin.ext; simp only [glob_val]; omega

/-- The sum over one tile: rows of run `gi` against columns of run `gj`. -/
def tile (y l : Fin 8192 → EReal) (gi gj : Fin 16) : EReal :=
  ∑ p : Fin 512, ∑ q : Fin 512, term y l (glob gi p) (glob gj q)

/-- The margin sum is the sum of its 256 tiles. -/
theorem margin_eq_tiles (y l : Fin 8192 → EReal) : margin y l = ∑ gi : Fin 16, ∑ gj : Fin 16, tile y l gi gj := by
  unfold margin tile
  rw [← Equiv.sum_comp globEquiv, Fintype.sum_prod_type]
  refine Finset.sum_congr rfl fun gi _ => ?_
  rw [Finset.sum_comm]
  have h : ∀ p : Fin 512, ∑ b : Fin 8192, term y l (globEquiv (gi, p)) b
      = ∑ gj : Fin 16, ∑ q : Fin 512, term y l (glob gi p) (glob gj q) := fun p => by
    rw [← Equiv.sum_comp globEquiv, Fintype.sum_prod_type]; rfl
  rw [← Finset.sum_comm]
  simp only [h]
  rw [Finset.sum_comm]

/-- Tile number `t` in row-major order of the 16 × 16 grid (zero past the grid). -/
def tileAt (y l : Fin 8192 → EReal) (t : ℕ) : EReal :=
  if h : t < 256 then tile y l ⟨t / 16, by omega⟩ ⟨t % 16, by omega⟩ else 0

/-- (tile row, tile column) ↔ point number. -/
def gridEquiv : Fin 16 × Fin 16 ≃ Fin 256 where
  toFun x := ⟨x.1.val * 16 + x.2.val, by have := x.1.isLt; have := x.2.isLt; omega⟩
  invFun t := (⟨t.val / 16, by have := t.isLt; omega⟩, ⟨t.val % 16, by omega⟩)
  left_inv x := by
    obtain ⟨g, p⟩ := x
    have := g.isLt; have := p.isLt
    apply Prod.ext <;> apply Fin.ext <;> simp only <;> omega
  right_inv t := by
    apply Fin.ext; simp only; omega

/-- The margin sum is the sum of the tiles listed point by point. -/
theorem margin_eq_points (y l : Fin 8192 → EReal) : margin y l = ∑ t ∈ Finset.range 256, tileAt y l t := by
  rw [margin_eq_tiles, ← Fin.sum_univ_eq_sum_range (fun t => tileAt y l t) 256, ← Equiv.sum_comp gridEquiv,
    Fintype.sum_prod_type]
  refine Finset.sum_congr rfl fun gi _ => Finset.sum_congr rfl fun gj _ => ?_
  have hi := gi.isLt; have hj := gj.isLt
  have ht : gi.val * 16 + gj.val < 256 := by omega
  show tile y l gi gj = tileAt y l (gi.val * 16 + gj.val)
  unfold tileAt
  rw [dif_pos ht]
  congr 1 <;> apply Fin.ext <;> simp only <;> omega

/-- The running sum a grid accumulator holds after point `n`: the first point stores zero and adds its tile, every
    later point adds its tile to what the point before left. -/
def running (y l : Fin 8192 → EReal) : ℕ → EReal
  | 0 => 0 + tileAt y l 0
  | n + 1 => running y l n + tileAt y l (n + 1)

theorem running_eq_sum (y l : Fin 8192 → EReal) (n : ℕ) : running y l n = ∑ t ∈ Finset.range (n + 1), tileAt y l t := by
  induction n with
  | zero => simp [running]
  | succ n ih => rw [running, ih, Finset.sum_range_succ _ (n + 1)]

/-- After the last point the accumulator holds the margin sum. -/
theorem running_last (y l : Fin 8192 → EReal) : running y l 255 = margin y l := by
  rw [running_eq_sum, margin_eq_points]

end Cert.Margin

end
-- ==== Proof.HingeForms.lean ====
/-
  The two printed spellings of one pair's masked hinge, read as the extended-real `hinge`, and the two 32-bit index
  comparisons read as comparisons of natural numbers.

  One side computes the sign of `dy` as "where |dy| > 0: −1 below zero else 1; elsewhere dy itself" and negates `r` as
  `0 − r`; the other applies the sign function and negation directly. Both are `max 0 (-r · dy)`. The index masks
  compare `512·g + p` (a tile's global row or column) or plain coordinates below 8192 as signed 32-bit words; all these
  numbers are far below 2³¹, so the signed comparison is the comparison of the numbers.
-/
import proofs.«108990_j54554674594330_1_alg».proof.Proof.MarginSpec

noncomputable section

namespace Cert.Margin

open Idealize.ShloMosaic

/-! ## Signed 32-bit comparisons of small numbers -/

theorem toInt_ofNat_small (n : ℕ) (h : n < 2 ^ 31) : (BitVec.ofNat 32 n).toInt = (n : ℤ) := by
  rw [BitVec.toInt_eq_toNat_cond, BitVec.toNat_ofNat, Nat.mod_eq_of_lt (by omega), if_pos (by omega)]

theorem slt_ofNat (m n : ℕ) (hm : m < 2 ^ 31) (hn : n < 2 ^ 31) :
    (BitVec.ofNat 32 m).slt (BitVec.ofNat 32 n) = decide (m < n) := by
  unfold BitVec.slt
  rw [toInt_ofNat_small m hm, toInt_ofNat_small n hn]
  exact decide_eq_decide.mpr Nat.cast_lt

theorem sle_ofNat (m n : ℕ) (hm : m < 2 ^ 31) (hn : n < 2 ^ 31) :
    (BitVec.ofNat 32 m).sle (BitVec.ofNat 32 n) = decide (m ≤ n) := by
  unfold BitVec.sle
  rw [toInt_ofNat_small m hm, toInt_ofNat_small n hn]
  exact decide_eq_decide.mpr Nat.cast_le

/-- A tile's mask: row `512 gi + p` signed-below column `512 gj + q`, as the order of the global indices. -/
theorem slt_mask (gi gj : Fin 16) (p q : Fin 512) :
    IntOp.cmpi .slt (IntOp.addi (Scalar.muli (BitVec.ofNat 32 gi.val) 512#32) (BitVec.ofNat 32 p.val))
        (IntOp.addi (Scalar.muli (BitVec.ofNat 32 gj.val) 512#32) (BitVec.ofNat 32 q.val))
      = BitVec.ofBool (decide ((glob gi p).val < (glob gj q).val)) := by
  have e : ∀ (g : Fin 16) (r : Fin 512),
      IntOp.addi (Scalar.muli (BitVec.ofNat 32 g.val) 512#32) (BitVec.ofNat 32 r.val) = BitVec.ofNat 32 (g.val * 512 + r.val) := by
    intro g r
    show BitVec.ofNat 32 g.val * BitVec.ofNat 32 512 + BitVec.ofNat 32 r.val = _
    rw [← BitVec.ofNat_mul, ← BitVec.ofNat_add]
  have hgi := gi.isLt; have hgj := gj.isLt; have hp := p.isLt; have hq := q.isLt
  rw [e, e]
  show BitVec.ofBool ((BitVec.ofNat 32 _).slt (BitVec.ofNat 32 _)) = _
  rw [slt_ofNat _ _ (by omega) (by omega)]
  rfl

/-- The whole-array mask: "row + 0 signed-at-least column" is `b ≤ a`. -/
theorem sge_mask (a b : Fin 8192) :
    IntOp.cmpi .sge (IntOp.addi (BitVec.ofNat 32 a.val) 0#32) (BitVec.ofNat 32 b.val) = BitVec.ofBool (decide (b.val ≤ a.val)) := by
  have ha := a.isLt; have hb := b.isLt
  show BitVec.ofBool ((BitVec.ofNat 32 b.val).sle (BitVec.ofNat 32 a.val + 0#32)) = _
  rw [BitVec.add_zero, sle_ofNat _ _ (by omega) (by omega)]

/-- A select on a decided bit is the `if`. -/
theorem select_ofBool {α : Type} (P : Prop) [Decidable P] (a b : α) :
    Scalar.select (BitVec.ofBool (decide P)) a b = if P then a else b := by
  unfold Scalar.select
  by_cases h : P
  · simp [h]
  · simp [h]

/-! ## The float words -/

theorem one_word : Ideal.ofBits .f32 0x3F800000#32 = 1 := IdealRules.sign_bit.ideal_onePat .f32
theorem neg_one_word : Ideal.ofBits .f32 0xBF800000#32 = -1 := IdealRules.sign_bit.ideal_negOnePat .f32

/-! ## The two spellings of the hinge -/

/-- The spelling with the sign rebuilt from comparisons and `0 − r`. -/
theorem hinge_of_selects (yi yj li lj : Ideal .f32) :
    FloatOps.maximumf (FloatOps.ofBits .f32 0#32)
      (FloatOps.mulf
        (FloatOps.subf (FloatOps.ofBits .f32 0#32)
          (Scalar.select (FloatOps.cmpf .ogt (FloatOps.subf li lj) (FloatOps.ofBits .f32 0#32))
            (FloatOps.ofBits .f32 1065353216#32)
            (Scalar.select (FloatOps.cmpf .olt (FloatOps.subf li lj) (FloatOps.ofBits .f32 0#32))
              (FloatOps.ofBits .f32 3212836864#32)
              (Scalar.select (FloatOps.cmpf .ogt (FloatOps.absf (FloatOps.subf yi yj)) (FloatOps.ofBits .f32 0#32))
                (Scalar.select (FloatOps.cmpf .olt (FloatOps.subf yi yj) (FloatOps.ofBits .f32 0#32))
                  (FloatOps.ofBits .f32 3212836864#32) (FloatOps.ofBits .f32 1065353216#32))
                (FloatOps.subf yi yj)))))
        (FloatOps.subf yi yj))
      = hinge yi yj li lj := by
  rw [show Scalar.select (FloatOps.cmpf .ogt (FloatOps.absf (FloatOps.subf yi yj)) (FloatOps.ofBits .f32 0#32))
        (Scalar.select (FloatOps.cmpf .olt (FloatOps.subf yi yj) (FloatOps.ofBits .f32 0#32))
          (FloatOps.ofBits .f32 3212836864#32) (FloatOps.ofBits .f32 1065353216#32))
        (FloatOps.subf yi yj) = Ideal.sign (FloatOps.subf yi yj) from Ideal.jnp_sign_eq_sign_f32 _]
  simp only [Ideal.ofBits_def, Ideal.cmpf_def, Ideal.cmp, Ideal.subf_def, Ideal.mulf_def, Ideal.maximumf_def,
    Ideal.ofBits_zero_f32, one_word, neg_one_word, Scalar.select, zero_sub]
  unfold hinge
  by_cases h1 : 0 < li - lj
  · simp [h1]
  · by_cases h2 : li - lj < 0
    · simp [h1, h2]
    · simp [h1, h2]

/-- The spelling with the sign function and negation applied directly. -/
theorem hinge_of_sign (yi yj li lj : Ideal .f32) :
    FloatOps.maximumf (FloatOps.ofBits .f32 0#32)
      (FloatOps.mulf
        (FloatOps.hostNegf
          (Scalar.select (FloatOps.cmpf .ogt (FloatOps.subf li lj) (FloatOps.ofBits .f32 0#32))
            (FloatOps.ofBits .f32 1065353216#32)
            (Scalar.select (FloatOps.cmpf .olt (FloatOps.subf li lj) (FloatOps.ofBits .f32 0#32))
              (FloatOps.ofBits .f32 3212836864#32)
              (FloatOps.hostUnary .sign (FloatOps.subf yi yj)))))
        (FloatOps.subf yi yj))
      = hinge yi yj li lj := by
  simp only [Ideal.ofBits_def, Ideal.cmpf_def, Ideal.cmp, Ideal.subf_def, Ideal.mulf_def, Ideal.maximumf_def,
    Ideal.ofBits_zero_f32, one_word, neg_one_word, Scalar.select, Ideal.hostNegf_def, Ideal.negf_def, Ideal.hostUnary_sign_def]
  unfold hinge
  by_cases h1 : 0 < li - lj
  · simp [h1]
  · by_cases h2 : li - lj < 0
    · simp [h1, h2]
    · simp [h1, h2]

end Cert.Margin

end
-- ==== Proof.TilePayload.lean ====
/-
  What the body computes at one grid point, read at the extended reals.

  The hinge tile: entry (p, q) of the 512 × 512 tile is `hinge` of row entry p of the two column blocks and column entry q
  of the two row blocks. The accumulating store: the old accumulator plus the sum, over rows p and then lanes q, of the
  tile's entries kept where the global row index `512 gi + p` is below the global column index `512 gj + q`.
-/
import proofs.«108990_j54554674594330_1_alg».proof.Proof.Gen.KernelIdeal.Skeleton
import proofs.«108990_j54554674594330_1_alg».proof.Proof.HingeForms
import Idealize.ShloMosaic.Lib.ValueIdx
import Idealize.ShloMosaic.Lib.Pipeline.Value
import Idealize.ShloMosaic.PureOps.Ideal.Laws

noncomputable section

open scoped BigOperators

namespace Cert.Margin

open Idealize.ShloMosaic Idealize.ShloMosaic.ValueIdx Cert.KernelIdeal Cert.KernelIdeal.Gen

/-! ## The broadcasts of a column block and of a row block -/

/-- A [512,1] column broadcast along the lanes reads its row's entry. -/
theorem col_apply (v : Vec Ideal S512x1 .f32) (p q : Fin 512) :
    broadcastTo S512x512 v broadcasts_S512x1_S512x512 (ix2 p q) = v (ix2 p 0) :=
  broadcastTo_apply v broadcasts_S512x1_S512x512 (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])

/-- A [1,512] row (recast to its own shape) broadcast down the rows reads its lane's entry. -/
theorem row_apply (v : Vec Ideal S1x512 .f32) (p q : Fin 512) :
    broadcastTo S512x512 (shapeCast S1x512 v shapeCasts_S1x512_S1x512) broadcasts_S1x512_S512x512 (ix2 p q) = v (ix2 0 q) := by
  rw [shapeCast_self]
  exact broadcastTo_apply v broadcasts_S1x512_S512x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-! ## The hinge tile -/

/-- Entry (p, q) of the tile is the hinge of the pair (row p, column q). -/
theorem tile_apply (yc : Vec Ideal S512x1 .f32) (yr : Vec Ideal S1x512 .f32) (lc : Vec Ideal S512x1 .f32)
    (lr : Vec Ideal S1x512 .f32) (p q : Fin 512) :
    k0_pay3 (F := Ideal) yc yr lc lr (ix2 p q) = hinge (yc (ix2 p 0)) (yr (ix2 0 q)) (lc (ix2 p 0)) (lr (ix2 0 q)) := by
  unfold k0_pay3
  simp only [subf, mulf, maximumf, select, cmpf, absf, broadcast, constant]
  rw [col_apply, row_apply, col_apply, row_apply]
  exact hinge_of_selects _ _ _ _

/-! ## The two reductions -/

theorem lift_lane (p q : Fin 512) : reduces_S512x512_S512.lift (ix1 p) q = ix2 p q := by
  funext a; match a with | ⟨0, _⟩ => rfl | ⟨1, _⟩ => rfl

theorem lift_row (k : S1.Idx) (p : Fin 512) : reduces_S512x1_S1.lift k p = ix2 p 0 := by
  funext a
  match a with
  | ⟨0, _⟩ => rfl
  | ⟨1, _⟩ => exact Fin.ext (by have h := (reduces_S512x1_S1.lift k p 1).isLt; show (reduces_S512x1_S1.lift k p 1).val = 0; change _ < 1 at h; omega)

/-- The sum along the lanes of a [512,512] vector, at row p. -/
theorem lane_sum (src : FVec Ideal S512x512 .f32) (hφ : FKind.Formats .f32)
    (hacc : (0x00000000#32 : BitVec 32) = FKind.add.neutral .f32 hφ) (p : Fin 512) :
    multiReduction .add [1] S512 src 0x00000000#32 reduces_S512x512_S512 hφ hacc (ix1 p) = ∑ q : Fin 512, src (ix2 p q) :=
  (Ideal.multiReduction_add_single src 0x00000000#32 reduces_S512x512_S512 hφ hacc (ix1 p)).trans
    (Finset.sum_congr rfl fun q _ => congrArg src (lift_lane p q))

/-- The sum down the rows of a [512,1] column. -/
theorem rows_sum (src : FVec Ideal S512x1 .f32) (hφ : FKind.Formats .f32)
    (hacc : (0x00000000#32 : BitVec 32) = FKind.add.neutral .f32 hφ) (k : S1.Idx) :
    multiReduction .add [0] S1 src 0x00000000#32 reduces_S512x1_S1 hφ hacc k = ∑ p : Fin 512, src (ix2 p 0) :=
  (Ideal.multiReduction_add_single src 0x00000000#32 reduces_S512x1_S1 hφ hacc k).trans
    (Finset.sum_congr rfl fun p _ => congrArg src (lift_row k p))

/-! ## The accumulating store -/

/-- At grid point (gi, gj): the old accumulator plus the tile's entries with global row below global column. -/
theorem acc_apply (gi gj : Fin 16) (h : FVec Ideal S512x512 .f32) (old : Vec Ideal S1x1 .f32) (j : S1x1.Idx) :
    k0_pay1 (F := Ideal) (BitVec.ofNat 32 gi.val) (BitVec.ofNat 32 gj.val) h old j
      = old j + ∑ p : Fin 512, ∑ q : Fin 512, (if (glob gi p).val < (glob gj q).val then h (ix2 p q) else 0) := by
  unfold k0_pay1
  simp only [addf]
  rw [shapeCast_self]
  rw [shapeCast_apply _ shapeCasts_S1_S1x1 j (ix1 0) (by
    rw [Shape.rowMajor_val_two, Shape.rowMajor_val_one]
    have := idx2_lt0 j; have := idx2_lt1 j
    show 0 = (j 0).val * 1 + (j 1).val; omega)]
  refine congrArg (fun z : EReal => old j + z) ?_
  refine (rows_sum _ _ _ (ix1 0)).trans (Finset.sum_congr rfl fun p _ => ?_)
  refine (shapeCast_apply _ shapeCasts_S512_S512x1 (ix2 p 0) (ix1 p) (by
    rw [Shape.rowMajor_val_two, Shape.rowMajor_val_one]; show p.val = p.val * 1 + 0; omega)).trans ?_
  refine (lane_sum _ _ _ p).trans (Finset.sum_congr rfl fun q _ => ?_)
  show Scalar.select (IntOp.cmpi .slt
      (IntOp.addi (Scalar.muli (BitVec.ofNat 32 gi.val) 512#32) (iota .tc S512x512 32 [0] iota_S512x512_d0_w32 (ix2 p q)))
      (IntOp.addi (Scalar.muli (BitVec.ofNat 32 gj.val) 512#32) (iota .tc S512x512 32 [1] iota_S512x512_d1_w32 (ix2 p q))))
    (h (ix2 p q)) (Ideal.ofBits .f32 0#32) = _
  rw [iota_single_apply, iota_single_apply]
  show Scalar.select (IntOp.cmpi .slt
      (IntOp.addi (Scalar.muli (BitVec.ofNat 32 gi.val) 512#32) (BitVec.ofNat 32 p.val))
      (IntOp.addi (Scalar.muli (BitVec.ofNat 32 gj.val) 512#32) (BitVec.ofNat 32 q.val)))
    (h (ix2 p q)) (Ideal.ofBits .f32 0#32) = _
  rw [slt_mask, Ideal.ofBits_zero_f32, select_ofBool]

/-- The reset stores zero. -/
theorem zero_apply (j : S1x1.Idx) : k0_pay2 (F := Ideal) j = 0 := by
  show Ideal.ofBits .f32 0x00000000#32 = 0
  exact Ideal.ofBits_zero_f32

end Cert.Margin

end
-- ==== Proof.AccChain.lean ====
/-
  The grid accumulator, point by point.

  At grid point t = 16·gi + gj the body leaves in the one-word output block its previous contents (zero at the first
  point, which stores it) plus the sum of tile (gi, gj): the masked hinges of rows `512 gi + p` of the two argument
  columns against columns `512 gj + q` of their transposes. By induction on the point the block holds the running sum of
  the tiles, and after the last point the whole margin sum.
-/
import proofs.«108990_j54554674594330_1_alg».proof.Proof.Gen.KernelIdeal.Frame
import proofs.«108990_j54554674594330_1_alg».proof.Proof.TilePayload
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Margin

/-! ## What each case of the body leaves in the output block, for any float values -/

section AnyValues

variable {F : FTy → Type} [FloatOps F]
variable (m : (ℓ : Loc nD τ sig) → Buf (Elt F) ℓ)

theorem hz : (![0, 0] : Fin 2 → Nat) = fun _ => 0 := funext fun a => by fin_cases a <;> rfl

/-- A later point: the accumulating store over the block's previous contents. -/
theorem out_B (c : Dev nD) (i : grid0.Coords) (a2 : Memref sig .tc .vmem S512x1 .f32) (h2 : a2.IsWhole)
    (a3 : Memref sig .tc .vmem S1x512 .f32) (h3 : a3.IsWhole) (a4 : Memref sig .tc .vmem S512x1 .f32) (h4 : a4.IsWhole)
    (a5 : Memref sig .tc .vmem S1x512 .f32) (h5 : a5.IsWhole) (a6 : Memref sig .tc .vmem S1x1 .f32) (h6 : a6.IsWhole)
    (hc : ¬cond0_0 i) (x0 : Vec F S512x1 .f32) (x1 : Vec F S1x512 .f32) (x2 : Vec F S512x1 .f32) (x3 : Vec F S1x512 .f32)
    (xo : Vec F S1x1 .f32) :
    out0_B_4 c i a2 h2 a3 h3 a4 h4 a5 h5 a6 h6 hc x0 x1 x2 x3 xo
      = k0_pay1 (BitVec.ofNat 32 (i 0).val) (BitVec.ofNat 32 (i 1).val) (k0_pay3 x0 x1 x2 x3) xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz]
  simp only [View.readAt_eq_ld, h2.read_unread, h3.read_unread, h4.read_unread, h5.read_unread, h6.read_unread,
    View.ld_unit_zero (S := S512x1) hz, View.ld_unit_zero (S := S1x512) hz, View.ld_unit_zero (S := S1x1) hz]

/-- The first point: the zero store, read back, then the accumulating store over it. -/
theorem out_A (c : Dev nD) (i : grid0.Coords) (a2 : Memref sig .tc .vmem S512x1 .f32) (h2 : a2.IsWhole)
    (a3 : Memref sig .tc .vmem S1x512 .f32) (h3 : a3.IsWhole) (a4 : Memref sig .tc .vmem S512x1 .f32) (h4 : a4.IsWhole)
    (a5 : Memref sig .tc .vmem S1x512 .f32) (h5 : a5.IsWhole) (a6 : Memref sig .tc .vmem S1x1 .f32) (h6 : a6.IsWhole)
    (hc : cond0_0 i) (x0 : Vec F S512x1 .f32) (x1 : Vec F S1x512 .f32) (x2 : Vec F S512x1 .f32) (x3 : Vec F S1x512 .f32) :
    out0_A_4 c i a2 h2 a3 h3 a4 h4 a5 h5 a6 h6 hc x0 x1 x2 x3
      = k0_pay1 (BitVec.ofNat 32 (i 0).val) (BitVec.ofNat 32 (i 1).val) (k0_pay3 x0 x1 x2 x3) (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x1) hz, View.readCov_unit_zero (S := S1x1) _ hz]
  simp only [View.readAt_eq_ld, h2.read_unread, h3.read_unread, h4.read_unread, h5.read_unread,
    View.ld_unit_zero (S := S512x1) hz, View.ld_unit_zero (S := S1x512) hz, View.ld_unit_zero (S := S1x1) hz]

/-! ## The grid and the windows' blocks -/

/-- Point t is (t / 16, t mod 16). -/
theorem coords_facts : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The column windows follow the first coordinate, the row windows the second. -/
theorem index_facts : ∀ t : Fin cfg0.N,
    (win0_0.index t 0 = t.val / 16 ∧ win0_0.index t 1 = 0) ∧ (win0_1.index t 0 = 0 ∧ win0_1.index t 1 = t.val % 16)
    ∧ (win0_2.index t 0 = t.val / 16 ∧ win0_2.index t 1 = 0) ∧ (win0_3.index t 0 = 0 ∧ win0_3.index t 1 = t.val % 16) :=
  (by decide +kernel : ∀ t : Fin grid0.N,
    (win0_0.index t 0 = t.val / 16 ∧ win0_0.index t 1 = 0) ∧ (win0_1.index t 0 = 0 ∧ win0_1.index t 1 = t.val % 16)
    ∧ (win0_2.index t 0 = t.val / 16 ∧ win0_2.index t 1 = 0) ∧ (win0_3.index t 0 = 0 ∧ win0_3.index t 1 = t.val % 16))

/-- Row p of the first column block at point t is row `512 (t / 16) + p` of the first argument. -/
theorem col_block0 (c : Dev nD) (t : Fin cfg0.N) (p : Fin 512) (a : Fin 8192) (ha : a.val = t.val / 16 * 512 + p.val) :
    (iblk m c 0 t : Vec F S512x1 .f32) (ix2 p 0) = V m c main_arg0 (ix2 a 0) := by
  have hi := (index_facts t).1
  unfold iblk
  rw [View.read_apply]
  show V m c main_arg0 _ = V m c main_arg0 _
  congr 1
  funext b
  apply Fin.ext
  match b with
  | ⟨0, _⟩ => show win0_0.index t 0 * 512 + 1 * p.val = a.val; rw [hi.1]; omega
  | ⟨1, _⟩ => show win0_0.index t 1 * 1 + 1 * 0 = 0; rw [hi.2]

/-- The same for the second argument's column block. -/
theorem col_block2 (c : Dev nD) (t : Fin cfg0.N) (p : Fin 512) (a : Fin 8192) (ha : a.val = t.val / 16 * 512 + p.val) :
    (iblk m c 2 t : Vec F S512x1 .f32) (ix2 p 0) = V m c main_arg1 (ix2 a 0) := by
  have hi := (index_facts t).2.2.1
  unfold iblk
  rw [View.read_apply]
  show V m c main_arg1 _ = V m c main_arg1 _
  congr 1
  funext b
  apply Fin.ext
  match b with
  | ⟨0, _⟩ => show win0_2.index t 0 * 512 + 1 * p.val = a.val; rw [hi.1]; omega
  | ⟨1, _⟩ => show win0_2.index t 1 * 1 + 1 * 0 = 0; rw [hi.2]

/-- Lane q of the first row block at point t is lane `512 (t mod 16) + q` of the first transposed array. -/
theorem row_block1 (c : Dev nD) (t : Fin cfg0.N) (q : Fin 512) (b : Fin 8192) (hb : b.val = t.val % 16 * 512 + q.val) :
    (iblk m c 1 t : Vec F S1x512 .f32) (ix2 0 q) = V m c main_v17 (ix2 0 b) := by
  have hi := (index_facts t).2.1
  unfold iblk
  rw [View.read_apply]
  show V m c main_v17 _ = V m c main_v17 _
  congr 1
  funext d
  apply Fin.ext
  match d with
  | ⟨0, _⟩ => show win0_1.index t 0 * 1 + 1 * 0 = 0; rw [hi.1]
  | ⟨1, _⟩ => show win0_1.index t 1 * 512 + 1 * q.val = b.val; rw [hi.2]; omega

/-- The same for the second transposed array. -/
theorem row_block3 (c : Dev nD) (t : Fin cfg0.N) (q : Fin 512) (b : Fin 8192) (hb : b.val = t.val % 16 * 512 + q.val) :
    (iblk m c 3 t : Vec F S1x512 .f32) (ix2 0 q) = V m c main_v18 (ix2 0 b) := by
  have hi := (index_facts t).2.2.2
  unfold iblk
  rw [View.read_apply]
  show V m c main_v18 _ = V m c main_v18 _
  congr 1
  funext d
  apply Fin.ext
  match d with
  | ⟨0, _⟩ => show win0_3.index t 0 * 1 + 1 * 0 = 0; rw [hi.1]
  | ⟨1, _⟩ => show win0_3.index t 1 * 512 + 1 * q.val = b.val; rw [hi.2]; omega

/-- The region finds the first row array at the transpose of the first argument, -/
theorem V_v17 (c : Dev nD) : (V m c main_v17 : S1x8192.Idx → F .f32)
    = transpose S1x8192 [1, 0] (m ((c : Thread nD τ).loc main_arg0)) transposes_S8192x1_S1x8192_1_0 := by
  dsimp only [Gen.V, Gen.V0]
  simp only [Gen.hostOps0, Gen.hostOps0_1, Gen.hostOps0_2, Gen.hostOps0_3, List.flatten_cons, List.flatten_nil, List.append_nil,
    List.cons_append, List.nil_append]
  after_results

/-- and the second at the transpose of the second. -/
theorem V_v18 (c : Dev nD) : (V m c main_v18 : S1x8192.Idx → F .f32)
    = transpose S1x8192 [1, 0] (m ((c : Thread nD τ).loc main_arg1)) transposes_S8192x1_S1x8192_1_0 := by
  dsimp only [Gen.V, Gen.V0]
  simp only [Gen.hostOps0, Gen.hostOps0_1, Gen.hostOps0_2, Gen.hostOps0_3, List.flatten_cons, List.flatten_nil, List.append_nil,
    List.cons_append, List.nil_append]
  after_results

/-- Lane b of the transpose of a column is its row b. -/
theorem transpose_col_apply (x : S8192x1.Idx → F .f32) (b : Fin 8192) :
    transpose S1x8192 [1, 0] x transposes_S8192x1_S1x8192_1_0 (ix2 0 b) = x (ix2 b 0) :=
  transpose_apply [1, 0] x transposes_S8192x1_S1x8192_1_0 (ix2 0 b) (ix2 b 0) (fun d => match d with
    | ⟨0, _⟩ => rfl
    | ⟨1, _⟩ => rfl)

end AnyValues

/-! ## At the extended reals: the running sum -/

variable (m : (ℓ : Loc nD τ sig) → Buf (Elt Ideal) ℓ)

/-- The first argument as a vector of 8192 extended reals, -/
def Y (c : Dev nD) : Fin 8192 → EReal := fun a => (m ((c : Thread nD τ).loc main_arg0) : S8192x1.Idx → EReal) (ix2 a 0)
/-- and the second. -/
def L (c : Dev nD) : Fin 8192 → EReal := fun a => (m ((c : Thread nD τ).loc main_arg1) : S8192x1.Idx → EReal) (ix2 a 0)

/-- One point's accumulating store over blocks that hold runs `t / 16` (columns) and `t mod 16` (rows) of `y`, `l`:
    the old word plus tile number t. -/
theorem point_value (y l : Fin 8192 → EReal) (t : ℕ) (ht : t < 256) (a0 a1 : BitVec 32)
    (ha0 : a0 = BitVec.ofNat 32 (t / 16)) (ha1 : a1 = BitVec.ofNat 32 (t % 16))
    (x0 : Vec Ideal S512x1 .f32) (x1 : Vec Ideal S1x512 .f32) (x2 : Vec Ideal S512x1 .f32) (x3 : Vec Ideal S1x512 .f32)
    (h0 : ∀ p : Fin 512, x0 (ix2 p 0) = y (glob ⟨t / 16, by omega⟩ p))
    (h1 : ∀ q : Fin 512, x1 (ix2 0 q) = y (glob ⟨t % 16, by omega⟩ q))
    (h2 : ∀ p : Fin 512, x2 (ix2 p 0) = l (glob ⟨t / 16, by omega⟩ p))
    (h3 : ∀ q : Fin 512, x3 (ix2 0 q) = l (glob ⟨t % 16, by omega⟩ q))
    (old : Vec Ideal S1x1 .f32) (j : S1x1.Idx) :
    k0_pay1 (F := Ideal) a0 a1 (k0_pay3 x0 x1 x2 x3) old j = old j + tileAt y l t := by
  subst ha0 ha1
  refine (acc_apply ⟨t / 16, by omega⟩ ⟨t % 16, by omega⟩ (k0_pay3 x0 x1 x2 x3) old j).trans ?_
  refine congrArg (fun z : EReal => old j + z) ?_
  unfold tileAt
  rw [dif_pos ht]
  unfold tile
  refine Finset.sum_congr rfl fun p _ => Finset.sum_congr rfl fun q _ => ?_
  rw [tile_apply, h0, h1, h2, h3]
  rfl

/-- The same at grid point t of the run, on the blocks the windows hold there. -/
theorem point_at (c : Dev nD) (t : Fin cfg0.N) (old : Vec Ideal S1x1 .f32) (j : S1x1.Idx) :
    k0_pay1 (F := Ideal) (BitVec.ofNat 32 (grid0.coords t 0).val) (BitVec.ofNat 32 (grid0.coords t 1).val)
        (k0_pay3 (iblk m c 0 t) (iblk m c 1 t) (iblk m c 2 t) (iblk m c 3 t)) old j
      = old j + tileAt (Y m c) (L m c) t.val := by
  have hN : t.val < 256 := lt_of_lt_of_eq t.isLt (show cfg0.N = 256 from N_0)
  exact point_value (Y m c) (L m c) t.val hN _ _
    (congrArg (BitVec.ofNat 32) (coords_facts t).1) (congrArg (BitVec.ofNat 32) (coords_facts t).2)
    (iblk m c 0 t) (iblk m c 1 t) (iblk m c 2 t) (iblk m c 3 t)
    (fun p => (col_block0 m c t p (glob ⟨t.val / 16, by omega⟩ p) rfl).trans (by rw [V_main_arg0]; rfl))
    (fun q => (row_block1 m c t q (glob ⟨t.val % 16, by omega⟩ q) rfl).trans (by rw [V_v17]; exact transpose_col_apply (F := Ideal) (m ((c : Thread nD τ).loc main_arg0)) (glob ⟨t.val % 16, by omega⟩ q)))
    (fun p => (col_block2 m c t p (glob ⟨t.val / 16, by omega⟩ p) rfl).trans (by rw [V_main_arg1]; rfl))
    (fun q => (row_block3 m c t q (glob ⟨t.val % 16, by omega⟩ q) rfl).trans (by rw [V_v18]; exact transpose_col_apply (F := Ideal) (m ((c : Thread nD τ).loc main_arg1)) (glob ⟨t.val % 16, by omega⟩ q)))
    old j

/-- After point n the output block holds the running sum of the tiles up to n — by induction on the point. -/
theorem outsAt_apply (c : Dev nD) : ∀ (n : ℕ) (h : n < cfg0.N) (j : S1x1.Idx),
    outsAt0 m c n h j = running (Y m c) (L m c) n
  | 0, h, j => by
    rw [outsAt0_A m c ⟨0, h⟩ rfl, out_A]
    refine (point_at m c ⟨0, h⟩ (k0_pay2 (F := Ideal)) j).trans ?_
    rw [zero_apply]
    rfl
  | n + 1, h, j => by
    have hN : cfg0.N = 256 := N_0
    have hB : ¬(⟨n + 1, h⟩ : Fin cfg0.N).val % 256 = 0 := by dsimp only; omega
    rw [outsAt0_B m c ⟨n + 1, h⟩ hB, out_B]
    refine (point_at m c ⟨n + 1, h⟩ _ j).trans ?_
    show outsAt0 m c n _ j + _ = _
    rw [outsAt_apply c n]
    rfl

/-- As a vector: every entry of the one-word block is the running sum. -/
theorem outsAt_eq (c : Dev nD) (n : ℕ) (h : n < cfg0.N) :
    outsAt0 m c n h = fun _ => running (Y m c) (L m c) n :=
  funext fun j => outsAt_apply m c n h j

end Cert.KernelIdeal.Acc

end
-- ==== Proof.KernelRun.lean ====
/-
  The idealized kernel's whole run, read.

  The one-word output array is written back once, after the last grid point, when its block holds the margin sum; the
  lines after the region reshape that word to a scalar, divide it by the number of pairs, and add it, weighted, to the
  two losses the lines before the region computed. So the program's result is that weighted sum, and the arguments end
  unchanged.
-/
import proofs.«108990_j54554674594330_1_alg».proof.Proof.AccChain

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.Margin

variable (m : (ℓ : Loc nD τ sig) → Buf (Elt Ideal) ℓ) (ρ : Dev nD → PrngReg)

/-- The output array after the run: its one word is the margin sum. -/
abbrev sumArr (c : Dev nD) : Buf (Elt Ideal) ((c : Thread nD τ).loc main_v19) := fun _ => margin (Y m c) (L m c)

/-- The one write-back happens at the last point, when the block holds the whole sum. -/
theorem flushed_eq (c : Dev nD) (t : Fin cfg0.N) (hf : (cfg0.win 4).flush t = true) :
    (dats m 0 c).flushed 4 t = ((cfg0.win 4).blk t).view.read (Elt Ideal) (sumArr m c) := by
  have hN : cfg0.N = 256 := N_0
  have h3 : t.val = 255 := by have := (flush0_4 t).mp hf; have := t.isLt; omega
  show (cfg0.win 4).cut (grid0.coords t) ((dats m 0 c).after 4 t) = _
  rw [after0_4, outsAt_eq]
  funext j
  rw [View.read_apply]
  show running (Y m c) (L m c) t.val = margin (Y m c) (L m c)
  rw [h3, running_last]

/-- The last grid point. -/
abbrev tlast : Fin cfg0.N := ⟨255, by rw [show cfg0.N = 256 from N_0]; decide⟩

/-- Its block is the whole one-word array, so the array ends at the margin sum. -/
theorem final (c : Dev nD) : (dats m 0 c).arrAt 4 cfg0.N = sumArr m c :=
  (dats m 0 c).arrAt_eq_of_cover 4 (sumArr m c) (flushed_eq m c) fun i =>
    ⟨tlast, (flush0_4 tlast).mpr rfl, by
      show i ∈ ((View.whole main_v19).slice (win0_4.rect tlast)).set
      rw [View.set_slice_whole, Rect.mem_set_unit]
      intro a
      have h0 : (i 0 : Nat) < 1 := (i 0).isLt
      have h1 : (i 1 : Nat) < 1 := (i 1).isLt
      match a with
      | ⟨0, _⟩ => show win0_4.index tlast 0 * win0_4.size 0 ≤ (i 0 : Nat) ∧ (i 0 : Nat) < win0_4.index tlast 0 * win0_4.size 0 + win0_4.xsize (grid0.coords tlast) 0
                  rw [show win0_4.index tlast 0 * win0_4.size 0 = 0 from by decide +kernel, show win0_4.xsize (grid0.coords tlast) 0 = 1 from by decide +kernel]; omega
      | ⟨1, _⟩ => show win0_4.index tlast 1 * win0_4.size 1 ≤ (i 1 : Nat) ∧ (i 1 : Nat) < win0_4.index tlast 1 * win0_4.size 1 + win0_4.xsize (grid0.coords tlast) 1
                  rw [show win0_4.index tlast 1 * win0_4.size 1 = 0 from by decide +kernel, show win0_4.xsize (grid0.coords tlast) 1 = 1 from by decide +kernel]; omega⟩

/-- The program's result: 0.9 · (first loss) + 0.1 · (margin sum / number of pairs) + 0.1 · (third loss), the first
    and third losses as the region found them. -/
abbrev result (c : Dev nD) : Buf (Elt Ideal) ((c : Thread nD τ).loc main_v26) :=
  addf (F := Ideal) (addf (mulf (constant S_ .f32 0x3F666666#32) (V m c main_v3))
    (mulf (constant S_ .f32 0x3DCCCCCD#32) (Host.divf (shapeCast S_ (sumArr m c) shapeCasts_S1x1_S_) (constant S_ .f32 0x4BFFF800#32))))
    (mulf (constant S_ .f32 0x3DCCCCCD#32) (V m c main_v16))

/-- The lines after the region compute it from the output array and the two bypassing scalars. -/
theorem tail_eq (c : Dev nD) : Pipeline.afterTail₀ cfgs (dats m) 0 (V0 m) [hostOps1] c main_v26 = result m c := by
  unfold Pipeline.afterTail₀
  show StableHlo.after hostOps1 _ (Proc.devRef .tc main_v26) = _
  after_results
  have h3 : Pipeline.withArrays (cfgs 0).spec c (V0 m c) (fun w => (dats m 0 c).arrAt w (cfgs 0).N) (Proc.devRef .tc main_v3)
      = V m c main_v3 :=
    Pipeline.withArrays_of_ne spec0 c (V0 m c) _ main_v3 (fun w => by fin_cases w <;> decide)
  have h16 : Pipeline.withArrays (cfgs 0).spec c (V0 m c) (fun w => (dats m 0 c).arrAt w (cfgs 0).N) (Proc.devRef .tc main_v16)
      = V m c main_v16 :=
    Pipeline.withArrays_of_ne spec0 c (V0 m c) _ main_v16 (fun w => by fin_cases w <;> decide)
  have h19 : Pipeline.withArrays (cfgs 0).spec c (V0 m c) (fun w => (dats m 0 c).arrAt w (cfgs 0).N) (Proc.devRef .tc main_v19)
      = sumArr m c :=
    (Pipeline.withArrays_arr spec0 launch0.win.arr_inj c _ _ 4).trans (final m c)
  rw [h3, h16, h19]
  rfl

/-- The run, read: the result at the weighted sum, both arguments unchanged. -/
theorem run : θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v26 (Pipeline.mem_restRefs_of main_v26 rfl (fun w => by fin_cases w <;> decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)
    (run_main m ρ)

end Cert.KernelIdeal.Acc

end
-- ==== Proof.RefSum.lean ====
/-
  The reference's margin term, read.

  The reference builds the 8192 × 8192 arrays of differences by broadcasts of the two arguments' columns, the hinge
  of every pair, the strict upper-triangle mask as "not (row + 0 ≥ column)", and sums everything from zero. At entry
  (a, b) the masked hinge is `term` of the pair, so the sum is the margin sum.
-/
import proofs.«108990_j54554674594330_1_alg».proof.Proof.Gen.ReferenceIdeal.Read
import proofs.«108990_j54554674594330_1_alg».proof.Proof.HingeForms
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read Cert.Margin

/-- An [8192,1] argument as a vector of 8192 extended reals. -/
def col (x : (⟨S8192x1, .f32⟩ : BufTy).Contents (Elt Ideal)) : Fin 8192 → EReal := fun a => x (ix2 a 0)

/-! ## Where the broadcasts read the arguments -/

theorem idx_row0 (a b : Fin 8192) : idx_main_v17 (idx_main_v19 (idx_main_v21 (ix2 a b))) = ix2 a 0 :=
  funext fun d => Fin.ext (by match d with
    | ⟨0, _⟩ => show a.val / 1 = a.val; omega
    | ⟨1, _⟩ => rfl)

theorem idx_col0 (a b : Fin 8192) : idx_main_v17 (idx_main_v20 (idx_main_v22 (ix2 a b))) = ix2 b 0 :=
  funext fun d => Fin.ext (by match d with
    | ⟨0, _⟩ => show b.val / 1 = b.val; omega
    | ⟨1, _⟩ => rfl)

theorem idx_row1 (a b : Fin 8192) : idx_main_v18 (idx_main_v24 (idx_main_v26 (ix2 a b))) = ix2 a 0 :=
  funext fun d => Fin.ext (by match d with
    | ⟨0, _⟩ => show a.val / 1 = a.val; omega
    | ⟨1, _⟩ => rfl)

theorem idx_col1 (a b : Fin 8192) : idx_main_v18 (idx_main_v25 (idx_main_v27 (ix2 a b))) = ix2 b 0 :=
  funext fun d => Fin.ext (by match d with
    | ⟨0, _⟩ => show b.val / 1 = b.val; omega
    | ⟨1, _⟩ => rfl)

/-! ## The masked hinge at one pair, and the sum -/

/-- Entry (a, b) of the masked array is the pair's term: the hinge where a < b, zero elsewhere. -/
theorem masked_apply (x0 x1 : (⟨S8192x1, .f32⟩ : BufTy).Contents (Elt Ideal)) (a b : Fin 8192) :
    val_main_v42 (F := Ideal) x0 x1 (ix2 a b) = term (col x0) (col x1) a b := by
  rw [val_main_v42_apply, val_main_v37_apply, val_main_call4_v4_apply, val_main_call4_v2_apply, val_main_call4_v0_apply,
    val_main_call4_v1_apply, val_main_call4_c_apply, val_main_call4_v3_apply, val_main_call4_v5_apply, val_main_call4_c_0_apply,
    val_main_v36_apply, val_main_c_apply, val_main_call5_v1_apply, val_main_call5_v0_apply, val_main_cst_12_apply,
    val_main_v41_apply, val_main_v40_apply, val_main_cst_11_apply, val_main_v39_apply, val_main_v38_apply, val_main_v35_apply,
    val_main_v30_apply, val_main_v29_apply, val_main_cst_7_apply, val_main_call3_v1_apply, val_main_call3_v0_apply, val_main_cst_10_apply,
    val_main_v34_apply, val_main_v32_apply, val_main_v31_apply, val_main_cst_8_apply, val_main_call2_v1_apply, val_main_call2_v0_apply,
    val_main_cst_9_apply, val_main_v33_apply, val_main_v28_apply, val_main_v26_apply, val_main_v27_apply, val_main_v24_apply, val_main_v25_apply,
    val_main_v18_apply, val_main_v18_apply, val_main_v23_apply, val_main_v21_apply, val_main_v22_apply, val_main_v19_apply, val_main_v20_apply,
    val_main_v17_apply, val_main_v17_apply]
  rw [idx_row0, idx_col0, idx_row1, idx_col1, hinge_of_sign]
  show Scalar.select (Scalar.select (IntOp.cmpi .sge (IntOp.addi (BitVec.ofNat 32 a.val) 0#32) (BitVec.ofNat 32 b.val)) 0#1 1#1)
    (hinge (x0 (ix2 a 0)) (x0 (ix2 b 0)) (x1 (ix2 a 0)) (x1 (ix2 b 0))) (Ideal.ofBits .f32 0#32) = _
  rw [sge_mask, select_ofBool, Ideal.ofBits_zero_f32]
  unfold term col
  by_cases hle : b.val ≤ a.val
  · rw [if_pos hle, if_neg (by omega)]; rfl
  · rw [if_neg hle, if_pos (by omega)]; rfl

/-- The reference's sum over the whole masked array, from zero, is the margin sum. -/
theorem sum_eq (x0 x1 : (⟨S8192x1, .f32⟩ : BufTy).Contents (Elt Ideal)) :
    val_main_v43 (F := Ideal) x0 x1 = fun _ => margin (col x0) (col x1) := by
  funext i
  rw [val_main_v43_apply, val_main_cst_13_apply, sum_idx2]
  show Ideal.ofBits .f32 0#32 + _ = _
  rw [Ideal.ofBits_zero_f32, zero_add]
  unfold margin
  exact Finset.sum_congr rfl fun a _ => Finset.sum_congr rfl fun b _ => masked_apply x0 x1 a b

end Cert.ReferenceIdeal.RefValue

end
-- ==== Proof.Bridge.lean ====
/-
  The two programs compute one number.

  Both start with the same lines for the first and third losses, and both end with the same weighted sum; between, one
  accumulates the margin sum tile by tile and the other sums the whole masked array. The sums agree (they are the same
  finite sum on the extended reals, regrouped), so the results agree.
-/
import proofs.«108990_j54554674594330_1_alg».proof.Proof.KernelRun
import proofs.«108990_j54554674594330_1_alg».proof.Proof.RefSum

noncomputable section

open Idealize.ShloMosaic Idealize.ShloMosaic.TcCoe Idealize.SL.Sem Idealize.ShloMosaic.ValueIdx

namespace Cert.Margin.Bridge

open Cert.KernelIdeal Cert.KernelIdeal.Gen Cert.KernelIdeal.Acc

variable (m : (ℓ : Loc nD τ sig) → Buf (Elt Ideal) ℓ)

/-- The first loss as the region finds it is the reference's stage of the same lines. -/
theorem first_loss (c : Dev nD) : V m c main_v3
    = Cert.ReferenceIdeal.Read.val_main_v3 (F := Ideal) (m ((c : Thread nD τ).loc main_arg0)) (m ((c : Thread nD τ).loc main_arg1)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

set_option maxHeartbeats 4000000 in
/-- The third loss likewise. -/
theorem third_loss (c : Dev nD) : V m c main_v16
    = Cert.ReferenceIdeal.Read.val_main_v16 (F := Ideal) (m ((c : Thread nD τ).loc main_arg0)) (m ((c : Thread nD τ).loc main_arg1)) := by
  dsimp only [Gen.V, Gen.V0]
  simp only [Gen.hostOps0, Gen.hostOps0_1, Gen.hostOps0_2, Gen.hostOps0_3, List.flatten_cons, List.flatten_nil, List.append_nil,
    List.cons_append, List.nil_append]
  after_results
  rfl

/-- The accumulated word, reshaped to a scalar, is the reference's sum of the masked array. -/
theorem margin_sum (c : Dev nD) : shapeCast S_ (sumArr m c) shapeCasts_S1x1_S_
    = Cert.ReferenceIdeal.Read.val_main_v43 (F := Ideal) (m ((c : Thread nD τ).loc main_arg0)) (m ((c : Thread nD τ).loc main_arg1)) := by
  rw [Cert.ReferenceIdeal.RefValue.sum_eq]
  rfl

/-- So the kernel's result is the reference's last stage, of the same arguments. -/
theorem result_eq (c : Dev nD) : result m c
    = Cert.ReferenceIdeal.Read.val_main_v49 (F := Ideal) (m ((c : Thread nD τ).loc main_arg0)) (m ((c : Thread nD τ).loc main_arg1)) := by
  show addf (F := Ideal) (addf (mulf (constant S_ .f32 0x3F666666#32) (V m c main_v3))
    (mulf (constant S_ .f32 0x3DCCCCCD#32) (Host.divf (shapeCast S_ (sumArr m c) shapeCasts_S1x1_S_) (constant S_ .f32 0x4BFFF800#32))))
    (mulf (constant S_ .f32 0x3DCCCCCD#32) (V m c main_v16)) = _
  rw [first_loss, third_loss, margin_sum]
  rfl

end Cert.Margin.Bridge

end
-- ==== Proof.lean ====
/-
  A combined loss of two vectors y, l of 8192 entries: 0.9 · mean((y − l)²) + 0.1 · M / 33550336 + 0.1 · (1 − mean of the
  row-wise cosines), where M is the margin-ranking sum over the pairs a < b of max 0 (−r · (y a − y b)), r = 1 where
  l a − l b > 0, −1 where it is < 0, else the sign of y a − y b.

  One program computes M with a 16 × 16 grid: at point (gi, gj) it forms the 512 × 512 tile of hinges of rows
  512 gi + p against columns 512 gj + q, keeps those with global row below global column, sums the tile and adds it into a
  one-word accumulator that the first point zeroes. The other forms the whole 8192 × 8192 masked array and sums it. On the
  extended reals the two are one finite sum regrouped (addition is commutative and associative there), the two spellings
  of the sign and of the negation agree at every extended real, and every other line of the two programs is the same
  operation on the same arguments; so the results are equal, and the precondition is not needed for that.

  Modules: MarginSpec (the sum and its regrouping), HingeForms (the two spellings, the index comparisons), TilePayload
  (one point's arithmetic), AccChain (the accumulator over the points), KernelRun (the run and the closing lines),
  RefSum (the other program's sum), Bridge (the results coincide).
-/
import proofs.«108990_j54554674594330_1_alg».proof.Defs
import proofs.«108990_j54554674594330_1_alg».proof.Proof.Gen.Kernel
import proofs.«108990_j54554674594330_1_alg».proof.Proof.Gen.Kernel.Skeleton
import proofs.«108990_j54554674594330_1_alg».proof.Proof.Gen.Kernel.Launch
import proofs.«108990_j54554674594330_1_alg».proof.Proof.Gen.Kernel.Points
import proofs.«108990_j54554674594330_1_alg».proof.Proof.Gen.Kernel.Frame
import proofs.«108990_j54554674594330_1_alg».proof.Proof.Gen.KernelIdeal
import proofs.«108990_j54554674594330_1_alg».proof.Proof.Gen.KernelIdeal.Skeleton
import proofs.«108990_j54554674594330_1_alg».proof.Proof.Gen.KernelIdeal.Launch
import proofs.«108990_j54554674594330_1_alg».proof.Proof.Gen.KernelIdeal.Points
import proofs.«108990_j54554674594330_1_alg».proof.Proof.Gen.KernelIdeal.Frame
import proofs.«108990_j54554674594330_1_alg».proof.Proof.Gen.ReferenceIdeal
import proofs.«108990_j54554674594330_1_alg».proof.Proof.Gen.ReferenceIdeal.Run
import proofs.«108990_j54554674594330_1_alg».proof.Proof.Gen.ReferenceIdeal.Read
import proofs.«108990_j54554674594330_1_alg».proof.Proof.Gen.Pre_finite_inputs
import proofs.«108990_j54554674594330_1_alg».proof.Proof.Bridge
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: 1.0 carrying a value's sign bit is "−1 below zero, else 1". -/
theorem preserves : Cert.preserves_Kernel_KernelIdeal :=
  IdealRules.sign_bit.statement Cert.KernelIdeal.S512x512 .f32

/-- From memories that agree on the arguments both programs end at the same weighted sum. -/
theorem algebraic : Cert.algebraic_KernelIdeal_ReferenceIdeal := by
  intro m ρ m' ρ' _ hagree
  refine ⟨fun c => Cert.KernelIdeal.Acc.result m c, Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, (hagree c).1, (hagree c).2]
  exact (Cert.Margin.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
